-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x256 : Shape := ⟨4, ![8, 128, 128, 256]⟩
abbrev S_ : Shape := ⟨0, ![]⟩

class Facts : Prop where
  bcast_S_S8x128x128x256 : S_.BroadcastsInDim S8x128x128x256 (![] : Fin 0 → Fin S8x128x128x256.rank)
  reducesTo_S8x128x128x256_S_d0_1_2_3 : S8x128x128x256.ReducesTo [0, 1, 2, 3] S_
  h_S_ : 0 < S_.numel

variable [Facts]

def fn {F : FTy → Type} [FloatOps F] (main_arg0 : FVec F S8x128x128x256 .f32) (main_arg1 : IVec S8x128x128x256 32) : IVec S_ 1 :=
  let main_v0 : FVec F S8x128x128x256 .f32 := Host.absf main_arg0
  let main_cst : FVec F S_ .f32 := constant S_ .f32 0x7F800000#32
  let main_v1 : FVec F S8x128x128x256 .f32 := broadcastInDim S8x128x128x256 ![] bcast_S_S8x128x128x256 main_cst
  let main_v2 : IVec S8x128x128x256 1 := cmpf .olt main_v0 main_v1
  let main_c : IVec S_ 1 := constantI S_ 1 1#1
  let main_v3 : IVec S_ 1 := (fun x v => Host.reduce IntOp.andi x v reducesTo_S8x128x128x256_S_d0_1_2_3 h_S_) main_v2 main_c
  main_v3
-- ==== Kernel.lean ====
abbrev S8x128x128x256 : Shape := ⟨4, ![8, 128, 128, 256]⟩
abbrev S1x64x128x256 : Shape := ⟨4, ![1, 64, 128, 256]⟩
abbrev S33554432 : Shape := ⟨1, ![33554432]⟩
abbrev S_ : Shape := ⟨0, ![]⟩
abbrev S134217728 : Shape := ⟨1, ![134217728]⟩
abbrev S33554432x1 : Shape := ⟨2, ![33554432, 1]⟩
abbrev S8x256x256x256 : Shape := ⟨4, ![8, 256, 256, 256]⟩

abbrev nBuf : Space → Nat
  | .hbm => 17
  | .vmem => 4
  | .smem => 0
  | _ => 0

abbrev bufTy : (tb : Table) → Fin (tcTables nBuf tb) → BufTy
  | .hbm, ⟨0, _⟩ => ⟨S8x128x128x256, .f32⟩
  | .hbm, ⟨1, _⟩ => ⟨S8x128x128x256, .i32⟩
  | .hbm, ⟨2, _⟩ => ⟨S8x128x128x256, .i32⟩
  | .hbm, ⟨3, _⟩ => ⟨S33554432, .i32⟩
  | .hbm, ⟨4, _⟩ => ⟨S33554432, .f32⟩
  | .hbm, ⟨5, _⟩ => ⟨S_, .f32⟩
  | .hbm, ⟨6, _⟩ => ⟨S134217728, .f32⟩
  | .hbm, ⟨7, _⟩ => ⟨S_, .i32⟩
  | .hbm, ⟨8, _⟩ => ⟨S33554432, .i32⟩
  | .hbm, ⟨9, _⟩ => ⟨S33554432, .i1⟩
  | .hbm, ⟨10, _⟩ => ⟨S_, .i32⟩
  | .hbm, ⟨11, _⟩ => ⟨S33554432, .i32⟩
  | .hbm, ⟨12, _⟩ => ⟨S33554432, .i32⟩
  | .hbm, ⟨13, _⟩ => ⟨S33554432, .i32⟩
  | .hbm, ⟨14, _⟩ => ⟨S33554432x1, .i32⟩
  | .hbm, ⟨15, _⟩ => ⟨S134217728, .f32⟩
  | .hbm, ⟨16, _⟩ => ⟨S8x256x256x256, .f32⟩
  | .local _ .vmem, ⟨0, _⟩ => ⟨S1x64x128x256, .i32⟩
  | .local _ .vmem, ⟨1, _⟩ => ⟨S1x64x128x256, .i32⟩
  | .local _ .vmem, ⟨2, _⟩ => ⟨S1x64x128x256, .i32⟩
  | .local _ .vmem, ⟨3, _⟩ => ⟨S1x64x128x256, .i32⟩
  | _, _ => ⟨S8x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x64x128x256_S1x64x128x256_0_0_0_0 : ∀ a, (![0, 0, 0, 0] : Fin 4 → Nat) a + S1x64x128x256.size a ≤ S1x64x128x256.size a
  h_S1x64x128x256 : 0 < S1x64x128x256.numel
  shapeCasts_S8x128x128x256_S33554432 : S8x128x128x256.ShapeCasts S33554432
  bcast_S_S134217728 : S_.BroadcastsInDim S134217728 (![] : Fin 0 → Fin S134217728.rank)
  bcast_S_S33554432 : S_.BroadcastsInDim S33554432 (![] : Fin 0 → Fin S33554432.rank)
  bcast_S33554432_S33554432x1_0 : S33554432.BroadcastsInDim S33554432x1 (![0] : Fin 1 → Fin S33554432x1.rank)
  shapeCasts_S134217728_S8x256x256x256 : S134217728.ShapeCasts S8x256x256x256
  scatter_S134217728_S33554432x1_S33554432_n_0_0_1_wf : ScatterDims.WF S134217728 S33554432x1 S33554432 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x256.size a ≤ S8x128x128x256.size a
  hwx0_0 : ∀ i : grid0.Coords, EltTy.bits .i32 = 32 ∨ (Rect.block (s := S8x128x128x256) S1x64x128x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x256.size a ≤ S8x128x128x256.size a
  hwx0_1 : ∀ i : grid0.Coords, EltTy.bits .i32 = 32 ∨ (Rect.block (s := S8x128x128x256) S1x64x128x256.size (cc0_transform_1 i) (hinb0_1 i)).WholeWords (EltTy.packing .i32)

variable [Facts₀]

def scatter_S134217728_S33554432x1_S33554432_n_0_0_1 : ScatterDims S134217728 S33554432x1 S33554432 where
  updateWindowDims := []
  insertedWindowDims := [0]
  scatterDimsToOperandDims := [0]
  indexVectorDim := 1
  wf := scatter_S134217728_S33554432x1_S33554432_n_0_0_1_wf

abbrev win0_0 : Pipeline.Window sig grid0 :=
  Pipeline.Window.ofSpec (Memref.whole main_arg1) S1x64x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x128x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x128x128x256 : Shape := ⟨4, ![8, 128, 128, 256]⟩
abbrev S8 : Shape := ⟨1, ![8]⟩
abbrev S8x1x1x1 : Shape := ⟨4, ![8, 1, 1, 1]⟩
abbrev S_ : Shape := ⟨0, ![]⟩
abbrev S33554432 : Shape := ⟨1, ![33554432]⟩
abbrev S134217728 : Shape := ⟨1, ![134217728]⟩
abbrev S33554432x1 : Shape := ⟨2, ![33554432, 1]⟩
abbrev S8x256x256x256 : Shape := ⟨4, ![8, 256, 256, 256]⟩

abbrev nBuf : Space → Nat
  | .hbm => 23
  | .vmem => 0
  | .smem => 0
  | _ => 0

abbrev bufTy : (tb : Table) → Fin (tcTables nBuf tb) → BufTy
  | .hbm, ⟨0, _⟩ => ⟨S8x128x128x256, .f32⟩
  | .hbm, ⟨1, _⟩ => ⟨S8x128x128x256, .i32⟩
  | .hbm, ⟨2, _⟩ => ⟨S8, .i32⟩
  | .hbm, ⟨3, _⟩ => ⟨S8x1x1x1, .i32⟩
  | .hbm, ⟨4, _⟩ => ⟨S_, .i32⟩
  | .hbm, ⟨5, _⟩ => ⟨S8x1x1x1, .i32⟩
  | .hbm, ⟨6, _⟩ => ⟨S8x1x1x1, .i32⟩
  | .hbm, ⟨7, _⟩ => ⟨S8x128x128x256, .i32⟩
  | .hbm, ⟨8, _⟩ => ⟨S8x128x128x256, .i32⟩
  | .hbm, ⟨9, _⟩ => ⟨S33554432, .i32⟩
  | .hbm, ⟨10, _⟩ => ⟨S33554432, .f32⟩
  | .hbm, ⟨11, _⟩ => ⟨S_, .f32⟩
  | .hbm, ⟨12, _⟩ => ⟨S134217728, .f32⟩
  | .hbm, ⟨13, _⟩ => ⟨S_, .i32⟩
  | .hbm, ⟨14, _⟩ => ⟨S33554432, .i32⟩
  | .hbm, ⟨15, _⟩ => ⟨S33554432, .i1⟩
  | .hbm, ⟨16, _⟩ => ⟨S_, .i32⟩
  | .hbm, ⟨17, _⟩ => ⟨S33554432, .i32⟩
  | .hbm, ⟨18, _⟩ => ⟨S33554432, .i32⟩
  | .hbm, ⟨19, _⟩ => ⟨S33554432, .i32⟩
  | .hbm, ⟨20, _⟩ => ⟨S33554432x1, .i32⟩
  | .hbm, ⟨21, _⟩ => ⟨S134217728, .f32⟩
  | .hbm, ⟨22, _⟩ => ⟨S8x256x256x256, .f32⟩
  | _, _ => ⟨S8x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  shapeCasts_S8_S8x1x1x1 : S8.ShapeCasts S8x1x1x1
  bcast_S_S8x1x1x1 : S_.BroadcastsInDim S8x1x1x1 (![] : Fin 0 → Fin S8x1x1x1.rank)
  bcast_S8x1x1x1_S8x128x128x256_0_1_2_3 : S8x1x1x1.BroadcastsInDim S8x128x128x256 (![0, 1, 2, 3] : Fin 4 → Fin S8x128x128x256.rank)
  shapeCasts_S8x128x128x256_S33554432 : S8x128x128x256.ShapeCasts S33554432
  bcast_S_S134217728 : S_.BroadcastsInDim S134217728 (![] : Fin 0 → Fin S134217728.rank)
  bcast_S_S33554432 : S_.BroadcastsInDim S33554432 (![] : Fin 0 → Fin S33554432.rank)
  bcast_S33554432_S33554432x1_0 : S33554432.BroadcastsInDim S33554432x1 (![0] : Fin 1 → Fin S33554432x1.rank)
  shapeCasts_S134217728_S8x256x256x256 : S134217728.ShapeCasts S8x256x256x256
  scatter_S134217728_S33554432x1_S33554432_n_0_0_1_wf : ScatterDims.WF S134217728 S33554432x1 S33554432 [] [0] [0] 1

variable [Facts₀]

def scatter_S134217728_S33554432x1_S33554432_n_0_0_1 : ScatterDims S134217728 S33554432x1 S33554432 where
  updateWindowDims := []
  insertedWindowDims := [0]
  scatterDimsToOperandDims := [0]
  indexVectorDim := 1
  wf := scatter_S134217728_S33554432x1_S33554432_n_0_0_1_wf

class Facts : Prop extends Facts₀ where

variable [Facts]
-- ==== Proof.FlatIndex.lean ====
/-
  The mathematics both programs share, stated once and over no program.

  Max-unpooling scatters every entry of `updates` (f32, laid out [8, 128, 128, 256]) into a flat buffer of
  8 · 256 · 256 · 256 = 134217728 zeros, at a position computed from the integer `mask` of the same layout:

      position (b, h, w, c) = mask (b, h, w, c) + b · 4194304        (4194304 = 128 · 128 · 256; 32-bit wrapping arithmetic)

  (`flatIndex`). Everything after that — flatten, wrap a negative position by adding the buffer's length, scatter-add
  into the zeros, reshape to [8, 256, 256, 256] — is the same chain of host operations in both programs (`scatterTail`).
  The two programs differ only in how they obtain the batch offset b · 4194304: one reads b as its grid coordinate, block by
  block; the other builds the column 0 … 7 once and broadcasts it. So their results are `scatterTail` of one and the same
  position array, and the scatter itself is never opened.
-/
import Idealize.ShloMosaic.PureOps

noncomputable section

namespace Cert.MaxUnpool

open Idealize.ShloMosaic

/-- The layout of `mask` and `updates`. -/
abbrev SIn : Shape := ⟨4, ![8, 128, 128, 256]⟩
/-- The same entries, flattened row-major. -/
abbrev SFlat : Shape := ⟨1, ![33554432]⟩
/-- The flattened positions as a column of one-component index vectors. -/
abbrev SFlatCol : Shape := ⟨2, ![33554432, 1]⟩
/-- The flat output buffer. -/
abbrev SOutFlat : Shape := ⟨1, ![134217728]⟩
/-- The output's layout. -/
abbrev SOut : Shape := ⟨4, ![8, 256, 256, 256]⟩
/-- A scalar. -/
abbrev SScalar : Shape := ⟨0, ![]⟩

/-- The flat scatter position of every entry: its mask value plus its batch coordinate times 4194304, in wrapping
    32-bit arithmetic. -/
def flatIndex (mask : IVec SIn 32) : IVec SIn 32 :=
  fun j => IntOp.addi (mask j) (IntOp.muli (BitVec.ofNat 32 (j 0).val) 4194304#32)

/-- What both programs do with a position array `pos` and the updates `upd`: flatten both; replace a negative
    position `p` by `p + 134217728`; add every update into a buffer of zeros at its position; reshape. Stated over the
    side conditions of the layout operations (each a decidable fact about literal shapes) and the scatter's dimension
    record, so that each program instantiates it with its own witnesses. -/
def scatterTail {F : FTy → Type} [FloatOps F]
    (hflat : SIn.ShapeCasts SFlat)
    (hzero : SScalar.BroadcastsInDim SOutFlat (![] : Fin 0 → Fin SOutFlat.rank))
    (hsplat : SScalar.BroadcastsInDim SFlat (![] : Fin 0 → Fin SFlat.rank))
    (hcol : SFlat.BroadcastsInDim SFlatCol (![0] : Fin 1 → Fin SFlatCol.rank))
    (hout : SOutFlat.ShapeCasts SOut)
    (dims : ScatterDims SOutFlat SFlatCol SFlat)
    (pos : IVec SIn 32) (upd : FVec F SIn .f32) : FVec F SOut .f32 :=
  shapeCast SOut
    (Host.scatterAdd (F := F) dims
      (broadcastInDim SOutFlat ![] hzero (constant (F := F) SScalar .f32 0x00000000#32))
      (broadcastInDim SFlatCol ![0] hcol
        (select
          (cmpi .slt (shapeCast SFlat pos hflat) (broadcastInDim SFlat ![] hsplat (constantI SScalar 32 0#32)))
          (addi (shapeCast SFlat pos hflat) (broadcastInDim SFlat ![] hsplat (constantI SScalar 32 134217728#32)))
          (shapeCast SFlat pos hflat)))
      (shapeCast SFlat upd hflat))
    hout

end Cert.MaxUnpool

end
-- ==== Proof.KernelIndex.lean ====
/-
  The region of the kernel's program computes the flat scatter positions.

  The grid has 8 × 2 points (b, g). At point (b, g) the body loads the block of `mask` with batch b and rows
  64 g … 64 g + 63 (block index (b, g, 0, 0), block extents 1 × 64 × 128 × 256), adds the splat of b · 4194304 to it, and
  stores the sum as the same block of the output. An entry (b', h, w, c) of that block has b' = b, so what the point
  writes back is the block of `flatIndex mask`; and every entry (b, h, w, c) of the array lies in the block of exactly the
  point (b, h / 64). Hence the output array ends holding `flatIndex mask`.
-/
import proofs.«146467_j90074054132394_1_alg».proof.Proof.FrameKernelIdeal
import proofs.«146467_j90074054132394_1_alg».proof.Proof.FlatIndex
import Idealize.ShloMosaic.Lib.Pipeline.Value

set_option maxRecDepth 16384

noncomputable section

namespace Cert.KernelIdeal.Region

open Idealize.ShloMosaic Idealize.ShloMosaic.TcCoe Idealize.SL.Sem
open Idealize.ShloMosaic.Pipeline (Dat)
open Cert.KernelIdeal Cert.KernelIdeal.Gen Cert.KernelIdeal.GenP Cert.MaxUnpool

variable {F : FTy → Type} [FloatOps F]
variable (m : (ℓ : Loc nD τ sig) → Buf (Elt F) ℓ)

/-- The body's one load and one store go through the whole staging buffer: offset zero on every axis. -/
theorem off_zero : (![0, 0, 0, 0] : Fin 4 → Nat) = fun _ => 0 := funext fun a => by fin_cases a <;> rfl

/-- The stored value at an entry of the block: the loaded entry plus the grid's batch coordinate times 4194304. -/
theorem pay_apply (i : grid0.Coords) (x : Vec F S1x64x128x256 .i32) (j : S1x64x128x256.Idx) :
    k0_pay1 i x j = IntOp.addi (x j) (IntOp.muli (BitVec.ofNat 32 (i 0).val) 4194304#32) := rfl

/-- The two windows' index maps, over the 16 grid points: the input's block index is the output's on every axis; the
    output's batch index is the point's first coordinate; the indices stay within 8 × 2 × 1 × 1 blocks. -/
theorem idx_facts : ∀ t : Fin cfg0.N,
    win0_0.index t (0 : Fin 4) = win0_1.index t (0 : Fin 4)
    ∧ win0_0.index t (1 : Fin 4) = win0_1.index t (1 : Fin 4)
    ∧ win0_0.index t (2 : Fin 4) = win0_1.index t (2 : Fin 4)
    ∧ win0_0.index t (3 : Fin 4) = win0_1.index t (3 : Fin 4)
    ∧ win0_1.index t (0 : Fin 4) = (grid0.coords t (0 : Fin 2)).val
    ∧ win0_1.index t (0 : Fin 4) ≤ 7 ∧ win0_1.index t (1 : Fin 4) ≤ 1
    ∧ win0_1.index t (2 : Fin 4) = 0 ∧ win0_1.index t (3 : Fin 4) = 0 :=
  (by decide +kernel : ∀ t : Fin grid0.N, _)

/-- Every block index (b, g, 0, 0) with b < 8 and g < 2 is some point's. -/
theorem idx_onto : ∀ (q0 : Fin 8) (q1 : Fin 2), ∃ t : Fin cfg0.N, win0_1.index t = ![q0.val, q1.val, 0, 0] :=
  (by decide +kernel : ∀ (q0 : Fin 8) (q1 : Fin 2), ∃ t : Fin grid0.N, win0_1.index t = ![q0.val, q1.val, 0, 0])

/-- WHAT POINT `t` WRITES BACK is block `t` of the flat positions of the mask as the region finds it. -/
theorem flushed_eq (c : Dev nD) (t : Fin cfg0.N) :
    (dats m 0 c).flushed 1 t = ((cfg0.win 1).blk t).view.read (Elt F) (flatIndex (V m c main_arg1)) := by
  show (cfg0.win 1).cut (grid0.coords t) ((dats m 0 c).after 1 t) = _
  rw [after0_1]
  unfold out0_1
  rw [View.canon_unit_zero off_zero]
  simp only [View.ld_unit_zero (S := S1x64x128x256) off_zero]
  obtain ⟨e0, e1, e2, e3, eb, r0, r1, r2, r3⟩ := idx_facts t
  funext j
  show IntOp.addi (V m c main_arg1 (((cfg0.win 0).blk t).view.emb j)) (IntOp.muli (BitVec.ofNat 32 (grid0.coords t (0 : Fin 2)).val) 4194304#32)
    = IntOp.addi (V m c main_arg1 (((cfg0.win 1).blk t).view.emb j))
        (IntOp.muli (BitVec.ofNat 32 ((((cfg0.win 1).blk t).view.emb j) (0 : Fin 4)).val) 4194304#32)
  -- the input block and the output block are the same rectangle of the array
  have h0 : ((cfg0.win 0).blk t).view.emb j = ((cfg0.win 1).blk t).view.emb j := by
    funext a; apply Fin.ext
    match a with
    | ⟨0, _⟩ => show win0_0.index t (0 : Fin 4) * 1 + 1 * (j 0).val = win0_1.index t (0 : Fin 4) * 1 + 1 * (j 0).val; omega
    | ⟨1, _⟩ => show win0_0.index t (1 : Fin 4) * 64 + 1 * (j 1).val = win0_1.index t (1 : Fin 4) * 64 + 1 * (j 1).val; omega
    | ⟨2, _⟩ => show win0_0.index t (2 : Fin 4) * 128 + 1 * (j 2).val = win0_1.index t (2 : Fin 4) * 128 + 1 * (j 2).val; omega
    | ⟨3, _⟩ => show win0_0.index t (3 : Fin 4) * 256 + 1 * (j 3).val = win0_1.index t (3 : Fin 4) * 256 + 1 * (j 3).val; omega
  -- and every entry of it has the point's batch coordinate: the block is one batch thick
  have hb : ((((cfg0.win 1).blk t).view.emb j) (0 : Fin 4)).val = (grid0.coords t (0 : Fin 2)).val := by
    show win0_1.index t (0 : Fin 4) * 1 + 1 * (j 0).val = _
    have hj : (j 0).val < 1 := (j 0).isLt
    omega
  rw [h0, hb]

/-- An entry of the array is in point `t`'s block iff each coordinate is in the block's range on its axis. -/
theorem mem_blk (t : Fin cfg0.N) (i : S8x128x128x256.Idx) :
    i ∈ ((cfg0.win 1).blk t).view.set ↔ ∀ a : Fin 4, win0_1.index t a * S1x64x128x256.size a ≤ (i a).val
      ∧ (i a).val < win0_1.index t a * S1x64x128x256.size a + S1x64x128x256.size a := by
  show i ∈ ((View.whole main_v0).slice (win0_1.rect t)).set ↔ _
  rw [View.set_slice_whole, Rect.mem_set_unit]
  exact Iff.rfl

/-- THE COVER: entry (b, h, w, c) is in the block of the point with block index (b, h / 64, 0, 0), which writes back. -/
theorem covered (i : S8x128x128x256.Idx) :
    ∃ t : Fin cfg0.N, (cfg0.win 1).flush t = true ∧ i ∈ ((cfg0.win 1).blk t).view.set := by
  have hi0 : (i 0).val < 8 := (i 0).isLt
  have hi1 : (i 1).val < 128 := (i 1).isLt
  have hi2 : (i 2).val < 128 := (i 2).isLt
  have hi3 : (i 3).val < 256 := (i 3).isLt
  obtain ⟨t, ht⟩ := idx_onto ⟨(i 0).val, hi0⟩ ⟨(i 1).val / 64, by omega⟩
  have q0 : win0_1.index t (0 : Fin 4) = (i 0).val := congrFun ht 0
  have q1 : win0_1.index t (1 : Fin 4) = (i 1).val / 64 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 64 ≤ (i 1).val ∧ (i 1).val < win0_1.index t (1 : Fin 4) * 64 + 64; omega
  | ⟨2, _⟩ => show win0_1.index t (2 : Fin 4) * 128 ≤ (i 2).val ∧ (i 2).val < win0_1.index t (2 : Fin 4) * 128 + 128; omega
  | ⟨3, _⟩ => show win0_1.index t (3 : Fin 4) * 256 ≤ (i 3).val ∧ (i 3).val < win0_1.index t (3 : Fin 4) * 256 + 256; omega

/-- THE OUTPUT ARRAY after the region: the flat positions of the mask the program was launched with. -/
theorem region_out (c : Dev nD) :
    (dats m 0 c).arrAt 1 cfg0.N = flatIndex (m ((c : Thread nD τ).loc main_arg1)) := by
  rw [(dats m 0 c).arrAt_eq_of_cover 1 (flatIndex (V m c main_arg1)) (fun t _ => flushed_eq m c t) covered, V_main_arg1]

end Cert.KernelIdeal.Region

end
-- ==== Proof.KernelTail.lean ====
/-
  The kernel's program after its region, and its whole run.

  When the region ends, the output array holds the flat positions (`region_out`) and `updates` is as launched. The
  fourteen host operations that follow read exactly those two arrays, and are the shared tail: so the program's result is
  `scatterTail` of the flat positions of `mask` and of `updates` (`tail_result`, `run`), and both arguments end unchanged.
-/
import proofs.«146467_j90074054132394_1_alg».proof.Proof.FrameKernelIdeal
import proofs.«146467_j90074054132394_1_alg».proof.Proof.KernelIndex
import proofs.«146467_j90074054132394_1_alg».proof.Proof.FlatIndex
import Idealize.ShloMosaic.Lib.Pipeline.Value
import Idealize.ShloMosaic.Lib.StableHlo.Run

set_option maxRecDepth 16384

noncomputable section

namespace Cert.KernelIdeal.Region

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.GenP Cert.MaxUnpool

variable {F : FTy → Type} [FloatOps F]
variable (m : (ℓ : Loc nD τ sig) → Buf (Elt F) ℓ) (ρ : Dev nD → PrngReg)

/-- The lines after the region, read at the program's result: they see the region's output array where the region
    left it and `updates` where the launch put it, and apply the shared tail to the two. -/
theorem tail_result (c : Dev nD) :
    Pipeline.afterTail₀ cfgs (dats m) 0 (V0 m) [hostOps1] c main_v11
      = scatterTail (F := F) shapeCasts_S8x128x128x256_S33554432 bcast_S_S134217728 bcast_S_S33554432 bcast_S33554432_S33554432x1_0
          shapeCasts_S134217728_S8x256x256x256 scatter_S134217728_S33554432x1_S33554432_n_0_0_1
          ((dats m 0 c).arrAt 1 cfg0.N) (m ((c : Thread nD τ).loc main_arg0)) := by
  unfold Pipeline.afterTail₀
  show StableHlo.after hostOps1 _ (Proc.devRef .tc main_v11) = _
  after_results
  -- the region's output array is the pipeline's window 1; `updates` is no window's array of it
  have hpos : Pipeline.withArrays (cfgs 0).spec c (V0 m c) (fun w => (dats m 0 c).arrAt w (cfgs 0).N) (Proc.devRef .tc main_v0)
      = (dats m 0 c).arrAt 1 cfg0.N :=
    Pipeline.withArrays_arr spec0 launch0.win.arr_inj c (V0 m c) (fun w => (dats m 0 c).arrAt w cfg0.N) 1
  have hupd : Pipeline.withArrays (cfgs 0).spec c (V0 m c) (fun w => (dats m 0 c).arrAt w (cfgs 0).N) (Proc.devRef .tc main_arg0)
      = m ((c : Thread nD τ).loc main_arg0) :=
    (Pipeline.withArrays_of_ne spec0 c (V0 m c) _ main_arg0 (by exact (by decide : ∀ w, Pipeline.arrRef spec0 w ≠ main_arg0))).trans
      (V_main_arg0 m c)
  rw [hpos, hupd]
  rfl

/-- THE RUN of the kernel's program: every weakly fair execution terminates, nothing faults, the result is the shared
    tail of the flat positions of `mask` and of `updates`, and both arguments end as launched. -/
theorem run : θ_run defs (onTc (τ := τ) (main (F := F))) ⟨m, fun _ => 0, ρ⟩ fun r => ∀ c : Dev nD,
      r.2.mem ((c.tc : Thread nD τ).loc main_v11)
        = scatterTail (F := F) shapeCasts_S8x128x128x256_S33554432 bcast_S_S134217728 bcast_S_S33554432 bcast_S33554432_S33554432x1_0
            shapeCasts_S134217728_S8x256x256x256 scatter_S134217728_S33554432x1_S33554432_n_0_0_1
            (flatIndex (m ((c.tc : Thread nD τ).loc main_arg1))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v11 (Pipeline.mem_restRefs_of main_v11 (by decide) (by decide))).trans
          ((tail_result m c).trans (by rw [region_out m c])),
        ((h c).2 main_arg0 (Pipeline.mem_restRefs_of main_arg0 (by decide) (by decide))).trans (W_main_arg0 m (dats m) c),
        ((h c).1 0).trans (((dats m 0 c).arrAt_in 0 rfl _).trans ((A_eq m c 0).trans (V_main_arg1 m c)))⟩)
    (run_main m ρ)

end Cert.KernelIdeal.Region

end
-- ==== Proof.RefIndex.lean ====
/-
  The reference program computes the same flat scatter positions, and applies the same tail to them.

  It builds the column 0, 1, …, 7 (an iota over the batch axis, reshaped to [8, 1, 1, 1]), multiplies it by 4194304,
  broadcasts the product over the other three axes and adds it to `mask`: at the entry (b, h, w, c) that is
  mask (b, h, w, c) + b · 4194304, the flat position (`ref_positions`). The operations after that are the shared tail, so the
  program's result is `scatterTail` of those positions and `updates` (`ref_result`).
-/
import proofs.«146467_j90074054132394_1_alg».proof.Proof.Gen.ReferenceIdeal.Run
import proofs.«146467_j90074054132394_1_alg».proof.Proof.Gen.ReferenceIdeal.Read
import proofs.«146467_j90074054132394_1_alg».proof.Proof.FlatIndex

noncomputable section

namespace Cert.ReferenceIdeal.Positions

open Idealize.ShloMosaic Idealize.ShloMosaic.TcCoe Idealize.SL.Sem
open Cert.ReferenceIdeal Cert.ReferenceIdeal.Gen Cert.ReferenceIdeal.Read Cert.MaxUnpool

variable {F : FTy → Type} [FloatOps F]

/-- The sum the reference flattens is the flat position array: the broadcast column, read at (b, h, w, c), is the
    iota's entry b — the batch coordinate — times 4194304. -/
theorem ref_positions (x1 : (⟨S8x128x128x256, .i32⟩ : BufTy).Contents (Elt F)) :
    val_main_v5 (F := F) x1 = flatIndex x1 := by
  funext i
  rw [val_main_v5_apply, val_main_v4_apply, val_main_v3_apply, val_main_v1_apply, val_main_v0_apply,
    val_main_v2_apply, val_main_c_apply]
  show IntOp.addi (x1 i) (IntOp.muli (BitVec.ofNat 32 ((((i 0).val * 1 + 0) * 1 + 0) * 1 + 0)) 4194304#32)
    = IntOp.addi (x1 i) (IntOp.muli (BitVec.ofNat 32 (i 0).val) 4194304#32)
  simp only [Nat.mul_one, Nat.add_zero]

/-- The reference's result is the shared tail of the flat positions and the updates: its remaining operations are,
    one for one, the tail's. -/
theorem ref_result (x0 : (⟨S8x128x128x256, .f32⟩ : BufTy).Contents (Elt F)) (x1 : (⟨S8x128x128x256, .i32⟩ : BufTy).Contents (Elt F)) :
    val_main_v16 (F := F) x0 x1
      = scatterTail (F := F) shapeCasts_S8x128x128x256_S33554432 bcast_S_S134217728 bcast_S_S33554432 bcast_S33554432_S33554432x1_0
          shapeCasts_S134217728_S8x256x256x256 scatter_S134217728_S33554432x1_S33554432_n_0_0_1 (flatIndex x1) x0 := by
  rw [← ref_positions]
  rfl

end Cert.ReferenceIdeal.Positions

end
-- ==== Proof.lean ====
/-
  Max-unpooling by scatter-add: a Pallas kernel that computes the flat scatter positions, against the jnp reference.

  Both programs add every entry of `updates` [8, 128, 128, 256] into a flat buffer of 134217728 zeros at the position
  mask (b, h, w, c) + b · 4194304 (wrapping 32-bit arithmetic; a negative position is wrapped by the buffer's length), and
  reshape the buffer to [8, 256, 256, 256]. The kernel's program computes the positions in a pallas_call over a grid of
  8 × 2 blocks, reading b as the grid's batch coordinate; the reference builds the column 0 … 7, scales it and broadcasts it.
  The scatter-add and the layout operations around it are the same host operations in both.

  The proof: the position arrays are one function of `mask`, entry by entry (`Cert.MaxUnpool.flatIndex`: the kernel's
  side in Proof/KernelIndex.lean — what each grid point writes back, and that the 16 blocks cover the array —, the
  reference's in Proof/RefIndex.lean), and the operations after them are one function of the positions and `updates`
  (`Cert.MaxUnpool.scatterTail`), never opened. No law of the extended reals is used and the precondition (finite
  `updates`) is not needed: the two results are the same term.

  The three frames: the kernel's programs run, fault nowhere and keep their arguments (Proof/FrameKernel.lean and
  Proof/FrameKernelIdeal.lean); the reference's frame is its run with the result dropped. The idealization rewrote no
  operation, so `preserves` has nothing to state.
-/
import proofs.«146467_j90074054132394_1_alg».proof.Defs
import proofs.«146467_j90074054132394_1_alg».proof.Proof.Gen.Kernel
import proofs.«146467_j90074054132394_1_alg».proof.Proof.Gen.KernelIdeal
import proofs.«146467_j90074054132394_1_alg».proof.Proof.Gen.ReferenceIdeal
import proofs.«146467_j90074054132394_1_alg».proof.Proof.Gen.Pre_finite_inputs
import proofs.«146467_j90074054132394_1_alg».proof.Proof.Gen.ReferenceIdeal.Run
import proofs.«146467_j90074054132394_1_alg».proof.Proof.Gen.ReferenceIdeal.Read
import proofs.«146467_j90074054132394_1_alg».proof.Proof.FrameKernel
import proofs.«146467_j90074054132394_1_alg».proof.Proof.FrameKernelIdeal
import proofs.«146467_j90074054132394_1_alg».proof.Proof.FlatIndex
import proofs.«146467_j90074054132394_1_alg».proof.Proof.KernelIndex
import proofs.«146467_j90074054132394_1_alg».proof.Proof.KernelTail
import proofs.«146467_j90074054132394_1_alg».proof.Proof.RefIndex
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the shared tail of the flat positions of `mask` and of `updates`; from memories that agree on
    the two arguments those are the same array. -/
theorem algebraic : Cert.algebraic_KernelIdeal_ReferenceIdeal := by
  intro m ρ m' ρ' _ hagree
  refine ⟨_, Cert.KernelIdeal.Region.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Positions.ref_result, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
